-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S1024x2048 : Shape := ⟨2, ![1024, 2048]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S32x1024x1024 .f32) (main_arg1 : FVec F S32x1024x1024 .f32) (main_arg2 : FVec F S1024x2048 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  main_v13
-- ==== Kernel.lean ====
abbrev S32x1024x1024 : Shape := ⟨3, ![32, 1024, 1024]⟩
abbrev S1024x2048 : Shape := ⟨2, ![1024, 2048]⟩
abbrev S1024x1024 : Shape := ⟨2, ![1024, 1024]⟩
abbrev S1024x32768 : Shape := ⟨2, ![1024, 32768]⟩
abbrev S1x256x1024 : Shape := ⟨3, ![1, 256, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩
abbrev S1024x32x1024 : Shape := ⟨3, ![1024, 32, 1024]⟩

abbrev nBuf : Space → Nat
  | .hbm => 11
  | .vmem => 11
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S1024x2048, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .bf16⟩
  | .hbm, ⟨7, _⟩ => ⟨S1024x32768, .f32⟩
  | .hbm, ⟨8, _⟩ => ⟨S1024x32768, .f32⟩
  | .hbm, ⟨9, _⟩ => ⟨S1024x32x1024, .f32⟩
  | .hbm, ⟨10, _⟩ => ⟨S1024x32x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S1024x2048_S1024x1024_0_0 : S1024x2048.Slices ![0, 0] S1024x1024
  bitsLt_bf16_f32 : FTy.bits .bf16 < FTy.bits .f32
  slices_S1024x2048_S1024x1024_0_1024 : S1024x2048.Slices ![0, 1024] S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  reduces_S256x1024_S256 : S256x1024.Reduces [1] S256
  shapeCasts_S256_S256x1 : S256.ShapeCasts S256x1
  broadcasts_S256x1_S256x1024 : S256x1.Broadcasts S256x1024
  inb_S256x1024_S256x1024_0_0 : ∀ a, (![0, 0] : Fin 2 → Nat) a + S256x1024.size a ≤ S256x1024.size a
  h_S256x1024 : 0 < S256x1024.numel
  shapeCasts_S1024x32768_S1024x32x1024 : S1024x32768.ShapeCasts S1024x32x1024
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x1024x1024.size a
  hwx0_0 : ∀ i : grid0.Coords, EltTy.bits .f32 = 32 ∨ (Rect.block (s := S32x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S1024x32768.size a
  hwx0_4 : ∀ i : grid0.Coords, EltTy.bits .f32 = 32 ∨ (Rect.block (s := S1024x32768) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S1024x32768.size a
  hwx0_5 : ∀ i : grid0.Coords, EltTy.bits .f32 = 32 ∨ (Rect.block (s := S1024x32768) S256x1024.size (cc0_transform_5 i) (hinb0_5 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S1024x2048 : Shape := ⟨2, ![1024, 2048]⟩
abbrev S_ : Shape := ⟨0, ![]⟩
abbrev S32x1024 : Shape := ⟨2, ![32, 1024]⟩
abbrev S32x1024x1 : Shape := ⟨3, ![32, 1024, 1]⟩
abbrev S1024x1024 : Shape := ⟨2, ![1024, 1024]⟩
abbrev S1024x32x1024 : Shape := ⟨3, ![1024, 32, 1024]⟩

abbrev nBuf : Space → Nat
  | .hbm => 27
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S1024x2048, .f32⟩
  | .hbm, ⟨3, _⟩ => ⟨S32x1024x1024, .f32⟩
  | .hbm, ⟨4, _⟩ => ⟨S_, .f32⟩
  | .hbm, ⟨5, _⟩ => ⟨S32x1024, .f32⟩
  | .hbm, ⟨6, _⟩ => ⟨S_, .f32⟩
  | .hbm, ⟨7, _⟩ => ⟨S32x1024, .f32⟩
  | .hbm, ⟨8, _⟩ => ⟨S32x1024, .f32⟩
  | .hbm, ⟨9, _⟩ => ⟨S32x1024x1, .f32⟩
  | .hbm, ⟨10, _⟩ => ⟨S32x1024x1024, .f32⟩
  | .hbm, ⟨11, _⟩ => ⟨S32x1024x1024, .f32⟩
  | .hbm, ⟨12, _⟩ => ⟨S32x1024x1024, .f32⟩
  | .hbm, ⟨13, _⟩ => ⟨S_, .f32⟩
  | .hbm, ⟨14, _⟩ => ⟨S32x1024, .f32⟩
  | .hbm, ⟨15, _⟩ => ⟨S32x1024x1, .f32⟩
  | .hbm, ⟨16, _⟩ => ⟨S32x1024x1024, .f32⟩
  | .hbm, ⟨17, _⟩ => ⟨S32x1024x1024, .f32⟩
  | .hbm, ⟨18, _⟩ => ⟨S32x1024x1024, .f32⟩
  | .hbm, ⟨19, _⟩ => ⟨S1024x1024, .f32⟩
  | .hbm, ⟨20, _⟩ => ⟨S1024x1024, .f32⟩
  | .hbm, ⟨21, _⟩ => ⟨S32x1024x1024, .f32⟩
  | .hbm, ⟨22, _⟩ => ⟨S32x1024x1024, .f32⟩
  | .hbm, ⟨23, _⟩ => ⟨S32x1024x1024, .f32⟩
  | .hbm, ⟨24, _⟩ => ⟨S32x1024x1024, .f32⟩
  | .hbm, ⟨25, _⟩ => ⟨S1024x32x1024, .f32⟩
  | .hbm, ⟨26, _⟩ => ⟨S1024x32x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  slices_S1024x2048_S1024x1024_0_0 : S1024x2048.Slices ![0, 0] S1024x1024
  slices_S1024x2048_S1024x1024_0_1024 : S1024x2048.Slices ![0, 1024] S1024x1024
  transposes_S32x1024x1024_S1024x32x1024_1_0_2 : S32x1024x1024.Transposes [1, 0, 2] S1024x32x1024
  dot_S32x1024x1024_S32x1024x1024_S32x1024x1024_2_2_1_1_0_0_wf : DotDims.WF S32x1024x1024 S32x1024x1024 S32x1024x1024 [2] [2] [1] [1] [0] [0]
  dot_S32x1024x1024_S32x1024x1024_S32x1024x1024_2_1_1_2_0_0_wf : DotDims.WF S32x1024x1024 S32x1024x1024 S32x1024x1024 [2] [1] [1] [2] [0] [0]
  dot_S32x1024x1024_S1024x1024_S32x1024x1024_2_1_01_0_n_n_wf : DotDims.WF S32x1024x1024 S1024x1024 S32x1024x1024 [2] [1] [0, 1] [0] [] []

variable [Facts₀]

def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf
def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf

class Facts : Prop extends Facts₀ where

variable [Facts]
-- ==== Proof.Spec.lean ====
/-
  Dot-product attention with an output projection, as mathematics over the extended reals.

  For a batch entry `b` and a query row `t` the scores against the 1024 keys are
  `a s = ∑ d, x[b,t,d] · c[b,s,d]`.  The attention weights are the row's softmax taken the stable way:
  `m = max_s a s` (started from −∞), `p s = exp (a s − m)`, `weight s = p s / ∑ k, p k`.  The context
  vector mixes the keys' rows, `mixed d = ∑ s, weight s · c[b,s,d]`, and the output applies the two halves
  of the projection matrix `w` (columns 0…1023 to the context vector, columns 1024…2047 to the query)
  and a hyperbolic tangent.  Both results are laid out with the query position first: (t, b, ·).
-/
import Idealize.ShloMosaic.PureOps.Ideal
import Idealize.ShloMosaic.Lib.ValueIdx

noncomputable section

namespace Cert.Attn

open Idealize.ShloMosaic Idealize.ShloMosaic.ValueIdx

/-- The single-precision word for −∞, as the value it denotes; it is only ever compared with itself. -/
abbrev negInf : EReal := Ideal.ofBits .f32 0xFF800000#32

/-- The largest of a row of 1024 scores, the maximum started from −∞. -/
def rowMax (a : Fin 1024 → EReal) : EReal := (Finset.univ : Finset (Fin 1024)).fold max negInf a

/-- The row maximum is at least its starting value, so taking the maximum with that value again changes nothing. -/
theorem max_rowMax (a : Fin 1024 → EReal) : max negInf (rowMax a) = rowMax a :=
  max_eq_right ((Finset.le_fold_max _).mpr (Or.inl le_rfl))

/-- The shifted exponential of one score. -/
def rowExp (a : Fin 1024 → EReal) (s : Fin 1024) : EReal := Ideal.exp (a s - rowMax a)

/-- The softmax of a row of scores at one position. -/
def softmax (a : Fin 1024 → EReal) (s : Fin 1024) : EReal := Ideal.div (rowExp a s) (∑ k : Fin 1024, rowExp a k)

/-- The queries and the keys: 32 batch entries of 1024 rows of 1024 features. -/
abbrev Arr3 : Type := (⟨3, ![32, 1024, 1024]⟩ : Shape).Idx → EReal
/-- The projection matrix: 1024 output features by 2048 input features. -/
abbrev ArrW : Type := (⟨2, ![1024, 2048]⟩ : Shape).Idx → EReal

/-- Column `d` of the projection's first half. -/
abbrev lo (d : Fin 1024) : Fin 2048 := ⟨d.val, by have := d.isLt; omega⟩
/-- Column `d` of the projection's second half. -/
abbrev hi (d : Fin 1024) : Fin 2048 := ⟨1024 + d.val, by have := d.isLt; omega⟩

/-- The scores of query row `t` of batch entry `b` against the keys. -/
def score (x c : Arr3) (b : Fin 32) (t : Fin 1024) : Fin 1024 → EReal :=
  fun s => ∑ d : Fin 1024, x (ix3 b t d) * c (ix3 b s d)

/-- The attention weight of key `s` for query row `t`. -/
def weight (x c : Arr3) (b : Fin 32) (t s : Fin 1024) : EReal := softmax (score x c b t) s

/-- The context vector: the keys' rows mixed by the weights. -/
def mixed (x c : Arr3) (b : Fin 32) (t d : Fin 1024) : EReal := ∑ s : Fin 1024, weight x c b t s * c (ix3 b s d)

/-- The projected and squashed output feature `e`. -/
def hidden (x c : Arr3) (w : ArrW) (b : Fin 32) (t e : Fin 1024) : EReal :=
  Ideal.tanh ((∑ d : Fin 1024, mixed x c b t d * w (ix2 e (lo d))) + ∑ d : Fin 1024, x (ix3 b t d) * w (ix2 e (hi d)))

/-- The first result, query position first. -/
def outHidden (x c : Arr3) (w : ArrW) : (⟨3, ![1024, 32, 1024]⟩ : Shape).Idx → EReal :=
  fun i => hidden x c w (i 1) (i 0) (i 2)

/-- The second result, query position first. -/
def outWeight (x c : Arr3) : (⟨3, ![1024, 32, 1024]⟩ : Shape).Idx → EReal :=
  fun i => weight x c (i 1) (i 0) (i 2)

end Cert.Attn

end
-- ==== Proof.RefValue.lean ====
/-
  The reference computes the specification.  Its stages are read one at a time at an index: the two
  batched products as sums over the contracted feature, the row maximum as a maximum over the keys
  started from −∞ (and the second maximum with −∞ changes nothing), the row sum as a sum over the keys
  started from zero, the two slices of the projection matrix as its two column halves, and the final
  transposes as the exchange of the batch and query coordinates.
-/
import proofs.«128563_j44358422233601_2_alg».proof.Proof.Spec
import proofs.«128563_j44358422233601_2_alg».proof.Proof.Gen.ReferenceIdeal.Read

noncomputable section

namespace Cert.ReferenceIdeal.RefValue

open Cert.ReferenceIdeal Cert.ReferenceIdeal.Gen Cert.ReferenceIdeal.Read Cert.Attn
open Idealize.ShloMosaic Idealize.ShloMosaic.ValueIdx

variable (x0 x1 : (⟨S32x1024x1024, .f32⟩ : BufTy).Contents (Elt Ideal)) (x2 : (⟨S1024x2048, .f32⟩ : BufTy).Contents (Elt Ideal))

/-- The first product at (b, t, s) is the score of key `s` for query row `t`. -/
theorem v0_apply (b : Fin 32) (t s : Fin 1024) : val_main_v0 (F := Ideal) x0 x1 (ix3 b t s) = score x0 x1 b t s := by
  rw [val_main_v0_apply]
  refine Finset.sum_congr rfl fun k _ => ?_
  have el : lidx_main_v0 (ix3 b t s) k = ix3 b t k := funext fun a => by
    match a with | ⟨0, _⟩ => rfl | ⟨1, _⟩ => rfl | ⟨2, _⟩ => rfl
  have er : ridx_main_v0 (ix3 b t s) k = ix3 b s k := funext fun a => by
    match a with | ⟨0, _⟩ => rfl | ⟨1, _⟩ => rfl | ⟨2, _⟩ => rfl
  rw [el, er]

/-- The maximum-reduction over the keys at (b, t) is the row maximum of the scores. -/
theorem v1_apply (b : Fin 32) (t : Fin 1024) : val_main_v1 (F := Ideal) x0 x1 (ix2 b t) = rowMax (score x0 x1 b t) := by
  have h : S32x1024x1024.Reduces [2] S32x1024 := by decide
  unfold val_main_v1
  rw [Host.reduce_eq_fold_single FloatOps.maximumf _ _ reducesTo_S32x1024x1024_S32x1024_d2 h h_S_]
  show (Finset.univ : Finset (Fin 1024)).fold max negInf (fun k => val_main_v0 (F := Ideal) x0 x1 (h.lift (ix2 b t) k)) = _
  unfold rowMax
  refine congrArg (fun f => (Finset.univ : Finset (Fin 1024)).fold max negInf f) (funext fun (k : Fin 1024) => ?_)
  have e : h.lift (ix2 b t) k = ix3 b t k := funext fun a => Fin.ext (by
    match a with | ⟨0, _⟩ => rfl | ⟨1, _⟩ => rfl | ⟨2, _⟩ => rfl)
  rw [e, v0_apply]

/-- The shifted exponential at (b, t, s). -/
theorem v7_apply (b : Fin 32) (t s : Fin 1024) : val_main_v7 (F := Ideal) x0 x1 (ix3 b t s) = rowExp (score x0 x1 b t) s := by
  have e5 : idx_main_v4 (idx_main_v5 (ix3 b t s)) = ix2 b t := funext fun a => by
    match a with | ⟨0, _⟩ => rfl | ⟨1, _⟩ => rfl
  rw [val_main_v7_apply, val_main_v6_apply, val_main_v5_apply, val_main_v4_apply, e5, val_main_v3_apply,
    val_main_v2_apply, val_main_cst_0_apply, v1_apply, v0_apply]
  show Ideal.exp (score x0 x1 b t s - max negInf (rowMax (score x0 x1 b t))) = _
  rw [max_rowMax]
  rfl

/-- The attention weight at (b, t, s). -/
theorem v11_apply (b : Fin 32) (t s : Fin 1024) : val_main_v11 (F := Ideal) x0 x1 (ix3 b t s) = weight x0 x1 b t s := by
  have e9 : idx_main_v9 (idx_main_v10 (ix3 b t s)) = ix2 b t := funext fun a => by
    match a with | ⟨0, _⟩ => rfl | ⟨1, _⟩ => rfl
  rw [val_main_v11_apply, val_main_v10_apply, val_main_v9_apply, e9, val_main_v8_apply, val_main_cst_1_apply, v7_apply]
  have es : ∀ k : Fin 1024, idx_main_v8 (ix2 b t) k = ix3 b t k := fun k => funext fun a => by
    match a with | ⟨0, _⟩ => rfl | ⟨1, _⟩ => rfl | ⟨2, _⟩ => rfl
  simp only [es, v7_apply]
  show Ideal.div _ (Ideal.ofBits .f32 0x00000000#32 + _) = _
  rw [Ideal.ofBits_zero_f32, zero_add]
  rfl

/-- The context vector at (b, t, d). -/
theorem v12_apply (b : Fin 32) (t d : Fin 1024) : val_main_v12 (F := Ideal) x0 x1 (ix3 b t d) = mixed x0 x1 b t d := by
  rw [val_main_v12_apply]
  refine Finset.sum_congr rfl fun k _ => ?_
  have el : lidx_main_v12 (ix3 b t d) k = ix3 b t k := funext fun a => by
    match a with | ⟨0, _⟩ => rfl | ⟨1, _⟩ => rfl | ⟨2, _⟩ => rfl
  have er : ridx_main_v12 (ix3 b t d) k = ix3 b k d := funext fun a => by
    match a with | ⟨0, _⟩ => rfl | ⟨1, _⟩ => rfl | ⟨2, _⟩ => rfl
  rw [el, er, v11_apply]

/-- The output before the transpose, at (b, t, e). -/
theorem v18_apply (b : Fin 32) (t e : Fin 1024) : val_main_v18 (F := Ideal) x0 x1 x2 (ix3 b t e) = hidden x0 x1 x2 b t e := by
  rw [val_main_v18_apply, val_main_v17_apply, val_main_v15_apply, val_main_v16_apply]
  have l15 : ∀ k : Fin 1024, lidx_main_v15 (ix3 b t e) k = ix3 b t k := fun k => funext fun a => by
    match a with | ⟨0, _⟩ => rfl | ⟨1, _⟩ => rfl | ⟨2, _⟩ => rfl
  have l16 : ∀ k : Fin 1024, lidx_main_v16 (ix3 b t e) k = ix3 b t k := fun k => funext fun a => by
    match a with | ⟨0, _⟩ => rfl | ⟨1, _⟩ => rfl | ⟨2, _⟩ => rfl
  have r15 : ∀ k : Fin 1024, idx_main_v13 (ridx_main_v15 (ix3 b t e) k) = ix2 e (lo k) := fun k => funext fun a => by
    match a with | ⟨0, _⟩ => rfl | ⟨1, _⟩ => rfl
  have r16 : ∀ k : Fin 1024, idx_main_v14 (ridx_main_v16 (ix3 b t e) k) = ix2 e (hi k) := fun k => funext fun a => by
    match a with | ⟨0, _⟩ => rfl | ⟨1, _⟩ => rfl
  simp only [val_main_v13_apply, val_main_v14_apply, l15, l16, r15, r16, v12_apply]
  rfl

/-- The reference's first result is the specification's. -/
theorem out0_eq : val_main_v19 (F := Ideal) x0 x1 x2 = outHidden x0 x1 x2 := by
  funext i
  obtain ⟨t, b, e, rfl⟩ : ∃ (t : Fin 1024) (b : Fin 32) (e : Fin 1024), i = ix3 t b e := ⟨i 0, i 1, i 2, eq_ix3 i⟩
  rw [val_main_v19_apply]
  have e' : idx_main_v19 (ix3 t b e) = ix3 b t e := funext fun a => by
    match a with | ⟨0, _⟩ => rfl | ⟨1, _⟩ => rfl | ⟨2, _⟩ => rfl
  rw [e', v18_apply]
  rfl

/-- The reference's second result is the specification's. -/
theorem out1_eq : val_main_v20 (F := Ideal) x0 x1 = outWeight x0 x1 := by
  funext i
  obtain ⟨t, b, s, rfl⟩ : ∃ (t : Fin 1024) (b : Fin 32) (s : Fin 1024), i = ix3 t b s := ⟨i 0, i 1, i 2, eq_ix3 i⟩
  rw [val_main_v20_apply]
  have e' : idx_main_v20 (ix3 t b s) = ix3 b t s := funext fun a => by
    match a with | ⟨0, _⟩ => rfl | ⟨1, _⟩ => rfl | ⟨2, _⟩ => rfl
  rw [e', v11_apply]
  rfl

end Cert.ReferenceIdeal.RefValue

end
-- ==== Proof.KPieces.lean ====
/-
  What one grid point's body leaves behind, as values.

  At the first query tile of a batch entry the body copies the batch entry's keys into the carried
  scratch, reads them back, and computes both outputs from the query tile and that copy; at the other
  three tiles it leaves the scratch alone and computes both outputs from the query tile and the scratch as
  the point before left it.  Each output is written by one store that covers the whole block, so what
  the block holds afterwards is that store's value; the loads read whole buffers, so they return the
  buffers' contents.
-/
import proofs.«128563_j44358422233601_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Later tiles of a batch entry: the attention weights from the query tile and the carried scratch. -/
theorem out_B_5 (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S256x1024 .f32) (h6 : a6.IsWhole) (a7 : Memref sig .tc .vmem S256x1024 .f32) (h7 : a7.IsWhole) (a8 : Memref sig .tc .vmem S1024x1024 .bf16) (h8 : a8.IsWhole) (hc : ¬cond0_0 i) (x0 : Vec F S1x256x1024 .f32) (x1 : Vec F S1x1024x1024 .f32) (x2 : Vec F S1024x1024 .bf16) (x3 : Vec F S1024x1024 .bf16) (xs0 : Vec F S1024x1024 .bf16) :
    out0_B_5 c i a2 h2 a3 h3 a4 h4 a5 h5 a6 h6 a7 h7 a8 h8 hc x0 x1 x2 x3 xs0 = k0_pay3 x0 xs0 := by
  unfold out0_B_5
  rw [View.read_writes_eq_canon _ _ _ (cover0_B_5 c i a2 h2 a3 h3 a4 h4 a5 h5 a6 h6 a7 h7 a8 h8 hc x0 x1 x2 x3 xs0)]
  unfold kernelRun0_B
  dsimp only
  rw [View.canon_unit_zero hz2]
  simp only [View.readAt_eq_ld, h2.read_unread, h8.read_unread, View.ld_unit_zero (S := S1x256x1024) hz3,
    View.ld_unit_zero (S := S1024x1024) hz2]

/-- Later tiles of a batch entry: the projected output from the query tile, the carried scratch and the two
    halves of the projection matrix. -/
theorem out_B_4 (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S256x1024 .f32) (h6 : a6.IsWhole) (a7 : Memref sig .tc .vmem S256x1024 .f32) (h7 : a7.IsWhole) (a8 : Memref sig .tc .vmem S1024x1024 .bf16) (h8 : a8.IsWhole) (hc : ¬cond0_0 i) (x0 : Vec F S1x256x1024 .f32) (x1 : Vec F S1x1024x1024 .f32) (x2 : Vec F S1024x1024 .bf16) (x3 : Vec F S1024x1024 .bf16) (xs0 : Vec F S1024x1024 .bf16) :
    out0_B_4 c i a2 h2 a3 h3 a4 h4 a5 h5 a6 h6 a7 h7 a8 h8 hc x0 x1 x2 x3 xs0 = k0_pay4 x0 xs0 x2 x3 := by
  unfold out0_B_4
  rw [View.read_writes_eq_canon _ _ _ (cover0_B_4 c i a2 h2 a3 h3 a4 h4 a5 h5 a6 h6 a7 h7 a8 h8 hc x0 x1 x2 x3 xs0)]
  unfold kernelRun0_B
  dsimp only
  rw [View.canon_unit_zero hz2]
  simp only [View.readAt_eq_ld, h2.read_unread, h4.read_unread, h5.read_unread, h8.read_unread,
    View.ld_unit_zero (S := S1x256x1024) hz3, View.ld_unit_zero (S := S1024x1024) hz2]

/-- First tile of a batch entry: the scratch ends holding the copy of the keys. -/
theorem sout_A (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S256x1024 .f32) (h6 : a6.IsWhole) (a7 : Memref sig .tc .vmem S256x1024 .f32) (h7 : a7.IsWhole) (a8 : Memref sig .tc .vmem S1024x1024 .bf16) (h8 : a8.IsWhole) (hc : cond0_0 i) (x0 : Vec F S1x256x1024 .f32) (x1 : Vec F S1x1024x1024 .f32) (x2 : Vec F S1024x1024 .bf16) (x3 : Vec F S1024x1024 .bf16) :
    sout0_A_0 c i a2 h2 a3 h3 a4 h4 a5 h5 a6 h6 a7 h7 a8 h8 hc x0 x1 x2 x3 = k0_pay2 x1 := by
  unfold sout0_A_0
  rw [View.read_writes_eq_canon _ _ _ (scover0_A_0 c i a2 h2 a3 h3 a4 h4 a5 h5 a6 h6 a7 h7 a8 h8 hc x0 x1 x2 x3)]
  unfold kernelRun0_A
  dsimp only
  sl_unfold_words
  rw [View.canon_unit_zero hz2]
  simp only [View.readAt_eq_ld, h3.read_unread, View.ld_unit_zero (S := S1x1024x1024) hz3]

/-- First tile of a batch entry: the attention weights from the query tile and the fresh copy of the keys. -/
theorem out_A_5 (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S256x1024 .f32) (h6 : a6.IsWhole) (a7 : Memref sig .tc .vmem S256x1024 .f32) (h7 : a7.IsWhole) (a8 : Memref sig .tc .vmem S1024x1024 .bf16) (h8 : a8.IsWhole) (hc : cond0_0 i) (x0 : Vec F S1x256x1024 .f32) (x1 : Vec F S1x1024x1024 .f32) (x2 : Vec F S1024x1024 .bf16) (x3 : Vec F S1024x1024 .bf16) :
    out0_A_5 c i a2 h2 a3 h3 a4 h4 a5 h5 a6 h6 a7 h7 a8 h8 hc x0 x1 x2 x3 = k0_pay3 x0 (k0_pay2 x1) := by
  unfold out0_A_5
  rw [View.read_writes_eq_canon _ _ _ (cover0_A_5 c i a2 h2 a3 h3 a4 h4 a5 h5 a6 h6 a7 h7 a8 h8 hc x0 x1 x2 x3)]
  unfold kernelRun0_A
  dsimp only
  sl_unfold_words
  rw [View.canon_unit_zero hz2, View.readCov_unit_zero (S := S1024x1024) _ hz2]
  simp only [View.readAt_eq_ld, h2.read_unread, h3.read_unread, View.ld_unit_zero (S := S1x256x1024) hz3,
    View.ld_unit_zero (S := S1x1024x1024) hz3]

/-- First tile of a batch entry: the projected output likewise. -/
theorem out_A_4 (c : Dev nD) (i : grid0.Coords) (a2 : Memref sig .tc .vmem S1x256x1024 .f32) (h2 : a2.IsWhole) (a3 : Memref sig .tc .vmem S1x1024x1024 .f32) (h3 : a3.IsWhole) (a4 : Memref sig .tc .vmem S1024x1024 .bf16) (h4 : a4.IsWhole) (a5 : Memref sig .tc .vmem S1024x1024 .bf16) (h5 : a5.IsWhole) (a6 : Memref sig .tc .vmem S256x1024 .f32) (h6 : a6.IsWhole) (a7 : Memref sig .tc .vmem S256x1024 .f32) (h7 : a7.IsWhole) (a8 : Memref sig .tc .vmem S1024x1024 .bf16) (h8 : a8.IsWhole) (hc : cond0_0 i) (x0 : Vec F S1x256x1024 .f32) (x1 : Vec F S1x1024x1024 .f32) (x2 : Vec F S1024x1024 .bf16) (x3 : Vec F S1024x1024 .bf16) :
    out0_A_4 c i a2 h2 a3 h3 a4 h4 a5 h5 a6 h6 a7 h7 a8 h8 hc x0 x1 x2 x3 = k0_pay4 x0 (k0_pay2 x1) x2 x3 := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [View.canon_unit_zero hz2, View.readCov_unit_zero (S := S1024x1024) _ hz2]
  simp only [View.readAt_eq_ld, h2.read_unread, h3.read_unread, h4.read_unread, h5.read_unread,
    View.ld_unit_zero (S := S1x256x1024) hz3, View.ld_unit_zero (S := S1x1024x1024) hz3,
    View.ld_unit_zero (S := S1024x1024) hz2]

end Cert.KernelIdeal.KValue

end
-- ==== Proof.KBlocks.lean ====
/-
  What each grid point reads and what it leaves.

  The 128 grid points run over 32 batch entries with 4 query tiles each: point `t` is tile `t % 4` of batch
  entry `t / 4`.  The query window's block at `t` is rows `256·(t % 4) … +255` of batch entry `t / 4`; the
  keys' window is the whole batch entry `t / 4`, the same block at the four points of one batch entry; the
  two halves of the projection matrix are whole arrays.  So the carried scratch, filled at the first tile of
  a batch entry and kept at the other three, holds the copy of that batch entry's keys after every point,
  and each point's two output blocks are the body's values of its query tile and that copy: by induction on
  the point.
-/
import proofs.«128563_j44358422233601_2_alg».proof.Proof.KPieces
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ)

/-- The printed index maps over the grid: batch entry `t / 4`, query tile `t % 4`. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val % 4 ∧ win0_4.index t (1 : Fin 2) = t.val / 4
    ∧ win0_5.index t (0 : Fin 2) = t.val % 4 ∧ win0_5.index t (1 : Fin 2) = t.val / 4 :=
  (by decide +kernel : ∀ t : Fin grid0.N, _)

/-- The batch entry of a grid point. -/
abbrev bOf (t : Fin cfg0.N) : Fin 32 := ⟨t.val / 4, by have h : t.val < 128 := lt_of_lt_of_eq t.isLt (show cfg0.N = 128 from N_0); omega⟩
/-- Row `r` of a grid point's query tile, as a row of the batch entry. -/
abbrev rowOf (t : Fin cfg0.N) (r : Fin 256) : Fin 1024 := ⟨t.val % 4 * 256 + r.val, by have := r.isLt; omega⟩

/-- The query window's block: rows of the point's tile, of the point's batch entry. -/
theorem iblk0_apply (c : Dev nD) (t : Fin cfg0.N) (r : Fin 256) (d : Fin 1024) :
    (iblk m c 0 t : Vec F S1x256x1024 .f32) (ix3 (0 : Fin 1) r d) = V m c main_arg0 (ix3 (bOf t) (rowOf t r) d) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = t.val / 4; omega
  | ⟨1, _⟩ => show win0_0.index t (1 : Fin 3) * 256 + 1 * r.val = t.val % 4 * 256 + r.val; omega
  | ⟨2, _⟩ => show win0_0.index t (2 : Fin 3) * 1024 + 1 * d.val = d.val; omega

/-- The keys' window's block: the whole of the point's batch entry. -/
theorem iblk1_apply (c : Dev nD) (t : Fin cfg0.N) (s d : Fin 1024) :
    (iblk m c 1 t : Vec F S1x1024x1024 .f32) (ix3 (0 : Fin 1) s d) = V m c main_arg1 (ix3 (bOf t) s d) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = t.val / 4; omega
  | ⟨1, _⟩ => show win0_1.index t (1 : Fin 3) * 1024 + 1 * s.val = s.val; omega
  | ⟨2, _⟩ => show win0_1.index t (2 : Fin 3) * 1024 + 1 * d.val = d.val; omega

/-- The keys' block does not change within a batch entry. -/
theorem iblk1_same (c : Dev nD) (t t' : Fin cfg0.N) (h : t.val / 4 = t'.val / 4) :
    (iblk m c 1 t : Vec F S1x1024x1024 .f32) = iblk m c 1 t' := by
  funext j
  obtain ⟨u, s, d, rfl⟩ : ∃ (u : Fin 1) (s d : Fin 1024), j = ix3 u s d := ⟨j 0, j 1, j 2, eq_ix3 j⟩
  obtain rfl : u = 0 := Subsingleton.elim _ _
  rw [iblk1_apply, iblk1_apply]
  exact congrArg (V m c main_arg1) (funext fun a => Fin.ext (by
    match a with | ⟨0, _⟩ => exact h | ⟨1, _⟩ => rfl | ⟨2, _⟩ => rfl))

/-- The first projection half's window is the whole array. -/
theorem iblk2_apply (c : Dev nD) (t : Fin cfg0.N) (e d : Fin 1024) :
    (iblk m c 2 t : Vec F S1024x1024 .bf16) (ix2 e d) = V m c main_v1 (ix2 e d) := by
  obtain ⟨-, -, -, -, -, -, e0, e1, -⟩ := idx_facts t
  unfold iblk
  rw [View.read_apply]
  show V m c main_v1 _ = V m c main_v1 _
  congr 1
  funext a
  apply Fin.ext
  match a with
  | ⟨0, _⟩ => show win0_2.index t (0 : Fin 2) * 1024 + 1 * e.val = e.val; omega
  | ⟨1, _⟩ => show win0_2.index t (1 : Fin 2) * 1024 + 1 * d.val = d.val; omega

/-- The second projection half's window is the whole array. -/
theorem iblk3_apply (c : Dev nD) (t : Fin cfg0.N) (e d : Fin 1024) :
    (iblk m c 3 t : Vec F S1024x1024 .bf16) (ix2 e d) = V m c main_v3 (ix2 e d) := by
  obtain ⟨-, -, -, -, -, -, -, -, e0, e1, -⟩ := idx_facts t
  unfold iblk
  rw [View.read_apply]
  show V m c main_v3 _ = V m c main_v3 _
  congr 1
  funext a
  apply Fin.ext
  match a with
  | ⟨0, _⟩ => show win0_3.index t (0 : Fin 2) * 1024 + 1 * e.val = e.val; omega
  | ⟨1, _⟩ => show win0_3.index t (1 : Fin 2) * 1024 + 1 * d.val = d.val; omega

/-- Before the region the first half of the projection matrix is sliced off and re-cast. -/
theorem V_main_v1 (c : Dev nD) : (V m c main_v1 : S1024x1024.Idx → Elt F .bf16)
    = truncf .bf16 (extractStridedSlice S1024x1024 ![0, 0] (m ((c : Thread nD τ).loc main_arg2)) slices_S1024x2048_S1024x1024_0_0) bitsLt_bf16_f32 := by
  show StableHlo.after hostOps0 (fun b => m (c, b)) (Proc.devRef .tc main_v1) = _
  after_results

/-- And the second half likewise. -/
theorem V_main_v3 (c : Dev nD) : (V m c main_v3 : S1024x1024.Idx → Elt F .bf16)
    = truncf .bf16 (extractStridedSlice S1024x1024 ![0, 1024] (m ((c : Thread nD τ).loc main_arg2)) slices_S1024x2048_S1024x1024_0_1024) bitsLt_bf16_f32 := by
  show StableHlo.after hostOps0 (fun b => m (c, b)) (Proc.devRef .tc main_v3) = _
  after_results

/-- AFTER EVERY POINT the scratch holds the copy of the point's batch entry's keys, and the two output blocks
    hold the body's values of the point's query tile and that copy. -/
theorem outsAt_eq (c : Dev nD) : ∀ (n : ℕ) (h : n < cfg0.N), outsAt0 m c n h
    = (k0_pay4 (iblk m c 0 ⟨n, h⟩) (k0_pay2 (iblk m c 1 ⟨n, h⟩)) (iblk m c 2 ⟨n, h⟩) (iblk m c 3 ⟨n, h⟩),
       k0_pay3 (iblk m c 0 ⟨n, h⟩) (k0_pay2 (iblk m c 1 ⟨n, h⟩)),
       k0_pay2 (iblk m c 1 ⟨n, h⟩))
  | 0, h => by
    rw [outsAt0_A m c ⟨0, h⟩ rfl, out_A_4, out_A_5, sout_A]
  | n + 1, h => by
    by_cases h0 : (n + 1) % 4 = 0
    · rw [outsAt0_A m c ⟨n + 1, h⟩ h0, out_A_4, out_A_5, sout_A]
    · rw [outsAt0_B m c ⟨n + 1, h⟩ h0, out_B_4, out_B_5]
      show (k0_pay4 _ (outsAt0 m c n _).2.2 _ _, k0_pay3 _ (outsAt0 m c n _).2.2, (outsAt0 m c n _).2.2) = _
      rw [outsAt_eq c n (Nat.lt_of_succ_lt h)]
      have e : (iblk m c 1 ⟨n, Nat.lt_of_succ_lt h⟩ : Vec F S1x1024x1024 .f32) = iblk m c 1 ⟨n + 1, h⟩ :=
        iblk1_same m c _ _ (by show n / 4 = (n + 1) / 4; omega)
      rw [e]

end Cert.KernelIdeal.KValue

end
-- ==== Proof.KPayload.lean ====
/-
  The body's arithmetic read at an index, over the extended reals.

  A matrix product into a zero accumulator is the sum over the contracted feature of the operands'
  products; the lane maximum of a row is the maximum over the keys started from −∞ and the lane sum the sum
  over the keys; a row statistic kept as a column and spread back over the row is that row's statistic at
  every key; a change of float format is the identity.  Hence a tile's attention weights are the softmax
  of its rows' scores, and its projected output is the hyperbolic tangent of the two projections' sum.
-/
import proofs.«128563_j44358422233601_2_alg».proof.Proof.Spec
import proofs.«128563_j44358422233601_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.KValue

open Cert.KernelIdeal Cert.KernelIdeal.Gen Cert.Attn

/-! ## The two matrix products -/

theorem mm_nt_l0 (i : S256x1024.Idx) (q : dot_S256x1024_S1024x1024_S256x1024_1_1_0_0_n_n.contr.Idx) : (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem mm_nt_l1 (i : S256x1024.Idx) (q : dot_S256x1024_S1024x1024_S256x1024_1_1_0_0_n_n.contr.Idx) : (dot_S256x1024_S1024x1024_S256x1024_1_1_0_0_n_n.lhsIdx i q 1).val = (q ⟨0, by decide⟩).val :=
  dot_S256x1024_S1024x1024_S256x1024_1_1_0_0_n_n.lhsIdx_val_of_single rfl i q
theorem mm_nt_r0 (i : S256x1024.Idx) (q : dot_S256x1024_S1024x1024_S256x1024_1_1_0_0_n_n.contr.Idx) : (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem mm_nt_r1 (i : S256x1024.Idx) (q : dot_S256x1024_S1024x1024_S256x1024_1_1_0_0_n_n.contr.Idx) : (dot_S256x1024_S1024x1024_S256x1024_1_1_0_0_n_n.rhsIdx i q 1).val = (q ⟨0, by decide⟩).val :=
  dot_S256x1024_S1024x1024_S256x1024_1_1_0_0_n_n.rhsIdx_val_of_single rfl i q
/-- Rows against rows: both operands are contracted along their second axis. -/
theorem mm_nt {φ₁ φ₂ : FTy} (lhs : FVec Ideal S256x1024 φ₁) (rhs : FVec Ideal S1024x1024 φ₂) (r : Fin 256) (s : Fin 1024) :
    matmul dot_S256x1024_S1024x1024_S256x1024_1_1_0_0_n_n none lhs rhs (constant (F := Ideal) S256x1024 .f32 0x00000000#32) (ix2 r s)
      = ∑ k : Fin 1024, lhs (ix2 r k) * rhs (ix2 s k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 r s) ((contrEquiv1 dot_S256x1024_S1024x1024_S256x1024_1_1_0_0_n_n 1024 rfl rfl).symm k) = ix2 r k := funext fun a => Fin.ext (by
    match a with
    | ⟨0, _⟩ => exact mm_nt_l0 _ _
    | ⟨1, _⟩ => exact (mm_nt_l1 _ _).trans hk)
  have er : dot_S256x1024_S1024x1024_S256x1024_1_1_0_0_n_n.rhsIdx (ix2 r s) ((contrEquiv1 dot_S256x1024_S1024x1024_S256x1024_1_1_0_0_n_n 1024 rfl rfl).symm k) = ix2 s k := funext fun a => Fin.ext (by
    match a with
    | ⟨0, _⟩ => exact mm_nt_r0 _ _
    | ⟨1, _⟩ => exact (mm_nt_r1 _ _).trans hk)
  rw [el, er]

theorem mm_nn_l0 (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem mm_nn_l1 (i : S256x1024.Idx) (q : dot_S256x1024_S1024x1024_S256x1024_1_0_0_1_n_n.contr.Idx) : (dot_S256x1024_S1024x1024_S256x1024_1_0_0_1_n_n.lhsIdx i q 1).val = (q ⟨0, by decide⟩).val :=
  dot_S256x1024_S1024x1024_S256x1024_1_0_0_1_n_n.lhsIdx_val_of_single rfl i q
theorem mm_nn_r0 (i : S256x1024.Idx) (q : dot_S256x1024_S1024x1024_S256x1024_1_0_0_1_n_n.contr.Idx) : (dot_S256x1024_S1024x1024_S256x1024_1_0_0_1_n_n.rhsIdx i q 0).val = (q ⟨0, by decide⟩).val :=
  dot_S256x1024_S1024x1024_S256x1024_1_0_0_1_n_n.rhsIdx_val_of_single rfl i q
theorem mm_nn_r1 (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
/-- Rows against columns: the left operand's second axis against the right operand's first. -/
theorem mm_nn {φ₁ φ₂ : FTy} (lhs : FVec Ideal S256x1024 φ₁) (rhs : FVec Ideal S1024x1024 φ₂) (r : Fin 256) (d : Fin 1024) :
    matmul dot_S256x1024_S1024x1024_S256x1024_1_0_0_1_n_n none lhs rhs (constant (F := Ideal) S256x1024 .f32 0x00000000#32) (ix2 r d)
      = ∑ k : Fin 1024, lhs (ix2 r k) * rhs (ix2 k d) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r d) ((contrEquiv1 dot_S256x1024_S1024x1024_S256x1024_1_0_0_1_n_n 1024 rfl rfl).symm k) = ix2 r k := funext fun a => Fin.ext (by
    match a with
    | ⟨0, _⟩ => exact mm_nn_l0 _ _
    | ⟨1, _⟩ => exact (mm_nn_l1 _ _).trans hk)
  have er : dot_S256x1024_S1024x1024_S256x1024_1_0_0_1_n_n.rhsIdx (ix2 r d) ((contrEquiv1 dot_S256x1024_S1024x1024_S256x1024_1_0_0_1_n_n 1024 rfl rfl).symm k) = ix2 k d := funext fun a => Fin.ext (by
    match a with
    | ⟨0, _⟩ => exact mm_nn_r0 _ _ |>.trans hk
    | ⟨1, _⟩ => exact mm_nn_r1 _ _)
  rw [el, er]

/-! ## Row statistics -/

/-- The lane maximum of row `r`. -/
theorem rowmax_apply (A : FVec Ideal S256x1024 .f32) (r : Fin 256) :
    (multiReduction (F := Ideal) .maximumf [1] S256 A 0xFF800000#32 reduces_S256x1024_S256 (.inl rfl) rfl) (ix1 r) = rowMax (fun s => A (ix2 r s)) := by
  refine (Ideal.multiReduction_maximumf_single A 0xFF800000#32 reduces_S256x1024_S256 (.inl rfl) rfl (ix1 r)).trans ?_
  unfold rowMax
  refine congrArg (fun f => (Finset.univ : Finset (Fin 1024)).fold max negInf f) (funext fun (k : Fin 1024) => ?_)
  exact congrArg A (funext fun a => Fin.ext (by match a with | ⟨0, _⟩ => rfl | ⟨1, _⟩ => rfl))

/-- The lane sum of row `r`. -/
theorem rowsum_apply (A : FVec Ideal S256x1024 .f32) (r : Fin 256) :
    (multiReduction (F := Ideal) .add [1] S256 A 0x00000000#32 reduces_S256x1024_S256 (.inl rfl) rfl) (ix1 r) = ∑ k : Fin 1024, A (ix2 r k) := by
  refine (Ideal.multiReduction_add_single A 0x00000000#32 reduces_S256x1024_S256 (.inl rfl) rfl (ix1 r)).trans ?_
  refine Finset.sum_congr rfl fun (k : Fin 1024) _ => ?_
  exact congrArg A (funext fun a => Fin.ext (by match a with | ⟨0, _⟩ => rfl | ⟨1, _⟩ => rfl))

/-- A per-row value kept as a column and spread over the row's 1024 keys is the row's value at every key. -/
theorem col_apply (v : FVec Ideal S256 .f32) (r : Fin 256) (s : Fin 1024) :
    (broadcastTo S256x1024 (shapeCast S256x1 v shapeCasts_S256_S256x1) broadcasts_S256x1_S256x1024) (ix2 r s) = v (ix1 r) := by
  refine (broadcastTo_apply _ broadcasts_S256x1_S256x1024 (ix2 r s) (ix2 r (0 : Fin 1)) fun a => ?_).trans ?_
  · match a with
    | ⟨0, _⟩ => show r.val = if (256 : Nat) = 1 then 0 else r.val; rw [if_neg (by decide)]
    | ⟨1, _⟩ => show 0 = if (1 : Nat) = 1 then 0 else s.val; rw [if_pos rfl]
  · exact shapeCast_apply v shapeCasts_S256_S256x1 (ix2 r (0 : Fin 1)) (ix1 r) (by
      rw [Shape.rowMajor_val_one, Shape.rowMajor_val_two]
      show r.val = r.val * 1 + 0
      omega)

/-! ## The payloads -/

/-- The query tile without its unit axis. -/
theorem pay1_apply (x0 : FVec Ideal S1x256x1024 .f32) (r : Fin 256) (d : Fin 1024) :
    k0_pay1 (F := Ideal) x0 (ix2 r d) = x0 (ix3 (0 : Fin 1) r d) :=
  shapeCast_1ab_ab_apply x0 shapeCasts_S1x256x1024_S256x1024 r d

/-- The scratch's copy of the keys, without the unit axis. -/
theorem pay2_apply (x1 : FVec Ideal S1x1024x1024 .f32) (s d : Fin 1024) :
    k0_pay2 (F := Ideal) x1 (ix2 s d) = x1 (ix3 (0 : Fin 1) s d) := by
  unfold k0_pay2
  show shapeCast S1024x1024 (truncf .bf16 (shapeCast S1024x1024 x1 shapeCasts_S1x1024x1024_S1024x1024) bitsLt_bf16_f32)
    shapeCasts_S1024x1024_S1024x1024 (ix2 s d) = _
  rw [shapeCast_self]
  refine (truncf_apply (shapeCast S1024x1024 x1 shapeCasts_S1x1024x1024_S1024x1024) bitsLt_bf16_f32 (ix2 s d)).trans ?_
  exact shapeCast_1ab_ab_apply x1 shapeCasts_S1x1024x1024_S1024x1024 s d

/-! ### The stable softmax of a block of scores, stage by stage as the body spells it -/

/-- Each row's maximum, spread back over the row. -/
def maxCol (A : FVec Ideal S256x1024 .f32) : FVec Ideal S256x1024 .f32 := (broadcastTo S256x1024 (shapeCast S256x1 (multiReduction (F := Ideal) .maximumf [1] S256 A 0xFF800000#32 reduces_S256x1024_S256 (.inl rfl) rfl) shapeCasts_S256_S256x1) broadcasts_S256x1_S256x1024)

theorem maxCol_apply (A : FVec Ideal S256x1024 .f32) (r : Fin 256) (s : Fin 1024) :
    maxCol A (ix2 r s) = rowMax (fun s' => A (ix2 r s')) :=
  (col_apply (multiReduction (F := Ideal) .maximumf [1] S256 A 0xFF800000#32 reduces_S256x1024_S256 (.inl rfl) rfl) r s).trans (rowmax_apply A r)

/-- The shifted exponentials. -/
def expBlk (A : FVec Ideal S256x1024 .f32) : FVec Ideal S256x1024 .f32 := exp (subf A (maxCol A))

theorem expBlk_apply (A : FVec Ideal S256x1024 .f32) (r : Fin 256) (s : Fin 1024) :
    expBlk A (ix2 r s) = rowExp (fun s' => A (ix2 r s')) s :=
  congrArg (fun z => Ideal.exp (A (ix2 r s) - z)) (maxCol_apply A r s)

/-- Each row's sum of them, spread back over the row. -/
def sumCol (A : FVec Ideal S256x1024 .f32) : FVec Ideal S256x1024 .f32 := (broadcastTo S256x1024 (shapeCast S256x1 (multiReduction (F := Ideal) .add [1] S256 (expBlk A) 0x00000000#32 reduces_S256x1024_S256 (.inl rfl) rfl) shapeCasts_S256_S256x1) broadcasts_S256x1_S256x1024)

theorem sumCol_apply (A : FVec Ideal S256x1024 .f32) (r : Fin 256) (s : Fin 1024) :
    sumCol A (ix2 r s) = ∑ k : Fin 1024, rowExp (fun s' => A (ix2 r s')) k :=
  (col_apply (multiReduction (F := Ideal) .add [1] S256 (expBlk A) 0x00000000#32 reduces_S256x1024_S256 (.inl rfl) rfl) r s).trans
    ((rowsum_apply (expBlk A) r).trans (Finset.sum_congr rfl fun k _ => expBlk_apply A r k))

/-- The quotient. -/
def softmaxBlk (A : FVec Ideal S256x1024 .f32) : FVec Ideal S256x1024 .f32 := divf (expBlk A) (sumCol A)

/-- Row `r` of it is the softmax of row `r` of the scores. -/
theorem softmaxBlk_apply (A : FVec Ideal S256x1024 .f32) (r : Fin 256) (s : Fin 1024) :
    softmaxBlk A (ix2 r s) = softmax (fun s' => A (ix2 r s')) s :=
  congrArg₂ Ideal.div (expBlk_apply A r s) (sumCol_apply A r s)

/-- The scores of a query tile against a block of keys. -/
def scoreBlk (x0 : FVec Ideal S1x256x1024 .f32) (v6 : FVec Ideal S1024x1024 .bf16) : FVec Ideal S256x1024 .f32 :=
  matmul dot_S256x1024_S1024x1024_S256x1024_1_1_0_0_n_n none (k0_pay1 (F := Ideal) x0) v6 (constant (F := Ideal) S256x1024 .f32 0x00000000#32)

theorem scoreBlk_apply (x0 : FVec Ideal S1x256x1024 .f32) (v6 : FVec Ideal S1024x1024 .bf16) (r : Fin 256) (s : Fin 1024) :
    scoreBlk x0 v6 (ix2 r s) = ∑ d : Fin 1024, x0 (ix3 (0 : Fin 1) r d) * v6 (ix2 s d) :=
  (mm_nt (k0_pay1 (F := Ideal) x0) v6 r s).trans (Finset.sum_congr rfl fun d _ => congrArg (· * v6 (ix2 s d)) (pay1_apply x0 r d))

/-- The body's weights are that softmax of those scores. -/
theorem pay3_eq (x0 : FVec Ideal S1x256x1024 .f32) (v6 : FVec Ideal S1024x1024 .bf16) :
    k0_pay3 (F := Ideal) x0 v6 = softmaxBlk (scoreBlk x0 v6) := rfl

/-- A tile's attention weights: the softmax of its rows' scores against the keys. -/
theorem pay3_apply (x0 : FVec Ideal S1x256x1024 .f32) (v6 : FVec Ideal S1024x1024 .bf16) (r : Fin 256) (s : Fin 1024) :
    k0_pay3 (F := Ideal) x0 v6 (ix2 r s) = softmax (fun s' => ∑ d : Fin 1024, x0 (ix3 (0 : Fin 1) r d) * v6 (ix2 s' d)) s := by
  rw [pay3_eq, softmaxBlk_apply]
  simp only [scoreBlk_apply]

/-- A tile's projected output: the hyperbolic tangent of the context vector through the first half of the
    projection plus the query through the second half. -/
theorem pay4_apply (x0 : FVec Ideal S1x256x1024 .f32) (v6 v20 v22 : FVec Ideal S1024x1024 .bf16) (r : Fin 256) (e : Fin 1024) :
    k0_pay4 (F := Ideal) x0 v6 v20 v22 (ix2 r e)
      = Ideal.tanh ((∑ d : Fin 1024, (∑ s : Fin 1024, k0_pay3 (F := Ideal) x0 v6 (ix2 r s) * v6 (ix2 s d)) * v20 (ix2 e d))
          + ∑ d : Fin 1024, x0 (ix3 (0 : Fin 1) r d) * v22 (ix2 e d)) := by
  unfold k0_pay4
  refine congrArg Ideal.tanh ?_
  refine congrArg₂ (· + ·)
    ((mm_nt (truncf .bf16 (matmul dot_S256x1024_S1024x1024_S256x1024_1_0_0_1_n_n none (truncf .bf16 (k0_pay3 (F := Ideal) x0 v6) bitsLt_bf16_f32) v6 (constant (F := Ideal) S256x1024 .f32 0x00000000#32)) bitsLt_bf16_f32)
      (shapeCast S1024x1024 v20 shapeCasts_S1024x1024_S1024x1024) r e).trans ?_)
    ((mm_nt (k0_pay1 (F := Ideal) x0) (shapeCast S1024x1024 v22 shapeCasts_S1024x1024_S1024x1024) r e).trans ?_)
  · refine Finset.sum_congr rfl fun d _ => congrArg₂ (· * ·) ?_ (congrFun (shapeCast_self v20 shapeCasts_S1024x1024_S1024x1024) (ix2 e d))
    exact mm_nn (truncf .bf16 (k0_pay3 (F := Ideal) x0 v6) bitsLt_bf16_f32) v6 r d
  · exact Finset.sum_congr rfl fun d _ => congrArg₂ (· * ·) (pay1_apply x0 r d) (congrFun (shapeCast_self v22 shapeCasts_S1024x1024_S1024x1024) (ix2 e d))

end Cert.KernelIdeal.KValue

end
-- ==== Proof.Flat.lean ====
/-
  The kernel writes each result with the batch entry and the feature flattened into one axis of
  32·1024 columns: column `b·1024 + e` of row `t` holds feature `e` of batch entry `b` at query position
  `t`.  Splitting that axis back into (b, e) is a reshape that keeps the row-major position, so it gives the
  specification's (t, b, e) layout.
-/
import proofs.«128563_j44358422233601_2_alg».proof.Proof.Spec
import Idealize.ShloMosaic.Lib.Pipeline.Value

noncomputable section

open Idealize.ShloMosaic Idealize.ShloMosaic.ValueIdx

namespace Cert.Attn

/-- The batch entry of a flattened column. -/
abbrev colB (i : (⟨2, ![1024, 32768]⟩ : Shape).Idx) : Fin 32 := ⟨(i 1).val / 1024, by have := idx2_lt1 i; omega⟩
/-- The feature of a flattened column. -/
abbrev colE (i : (⟨2, ![1024, 32768]⟩ : Shape).Idx) : Fin 1024 := ⟨(i 1).val % 1024, Nat.mod_lt _ (by decide)⟩
/-- The query position of a row. -/
abbrev rowT (i : (⟨2, ![1024, 32768]⟩ : Shape).Idx) : Fin 1024 := ⟨(i 0).val, idx2_lt0 i⟩

/-- The first result in the flattened layout. -/
def flatHidden (x c : Arr3) (w : ArrW) : (⟨2, ![1024, 32768]⟩ : Shape).Idx → EReal :=
  fun i => hidden x c w (colB i) (rowT i) (colE i)

/-- The second result in the flattened layout. -/
def flatWeight (x c : Arr3) : (⟨2, ![1024, 32768]⟩ : Shape).Idx → EReal :=
  fun i => weight x c (colB i) (rowT i) (colE i)

theorem flat_coords (i : (⟨2, ![1024, 32768]⟩ : Shape).Idx) (b : Fin 32) (t e : Fin 1024)
    (h0 : (i 0).val = t.val) (h1 : (i 1).val = b.val * 1024 + e.val) : colB i = b ∧ rowT i = t ∧ colE i = e := by
  have hb := b.isLt
  have he := e.isLt
  refine ⟨Fin.ext ?_, Fin.ext ?_, Fin.ext ?_⟩
  · show (i 1).val / 1024 = b.val; omega
  · show (i 0).val = t.val; exact h0
  · show (i 1).val % 1024 = e.val; omega

theorem flatHidden_at (x c : Arr3) (w : ArrW) (i : (⟨2, ![1024, 32768]⟩ : Shape).Idx) (b : Fin 32) (t e : Fin 1024)
    (h0 : (i 0).val = t.val) (h1 : (i 1).val = b.val * 1024 + e.val) : flatHidden x c w i = hidden x c w b t e := by
  obtain ⟨eb, et, ee⟩ := flat_coords i b t e h0 h1
  unfold flatHidden
  rw [eb, et, ee]

theorem flatWeight_at (x c : Arr3) (i : (⟨2, ![1024, 32768]⟩ : Shape).Idx) (b : Fin 32) (t s : Fin 1024)
    (h0 : (i 0).val = t.val) (h1 : (i 1).val = b.val * 1024 + s.val) : flatWeight x c i = weight x c b t s := by
  obtain ⟨eb, et, ee⟩ := flat_coords i b t s h0 h1
  unfold flatWeight
  rw [eb, et, ee]

/-- A flattened column from its batch entry and feature. -/
abbrev colOf (b : Fin 32) (e : Fin 1024) : Fin 32768 := ⟨b.val * 1024 + e.val, by have := b.isLt; have := e.isLt; omega⟩

/-- Splitting the flattened axis gives the specification's first result. -/
theorem reshape_flatHidden (x c : Arr3) (w : ArrW)
    (h : (⟨2, ![1024, 32768]⟩ : Shape).ShapeCasts ⟨3, ![1024, 32, 1024]⟩) :
    shapeCast ⟨3, ![1024, 32, 1024]⟩ (flatHidden x c w) h = outHidden x c w := by
  funext i
  obtain ⟨t, b, e, rfl⟩ : ∃ (t : Fin 1024) (b : Fin 32) (e : Fin 1024), i = ix3 t b e := ⟨i 0, i 1, i 2, eq_ix3 i⟩
  refine (shapeCast_apply (flatHidden x c w) h (ix3 t b e) (ix2 t (colOf b e)) (by
    rw [Shape.rowMajor_val_two, Shape.rowMajor_val_three]
    show t.val * 32768 + (b.val * 1024 + e.val) = (t.val * 32 + b.val) * 1024 + e.val
    omega)).trans ?_
  exact flatHidden_at x c w _ b t e rfl rfl

/-- Splitting the flattened axis gives the specification's second result. -/
theorem reshape_flatWeight (x c : Arr3)
    (h : (⟨2, ![1024, 32768]⟩ : Shape).ShapeCasts ⟨3, ![1024, 32, 1024]⟩) :
    shapeCast ⟨3, ![1024, 32, 1024]⟩ (flatWeight x c) h = outWeight x c := by
  funext i
  obtain ⟨t, b, s, rfl⟩ : ∃ (t : Fin 1024) (b : Fin 32) (s : Fin 1024), i = ix3 t b s := ⟨i 0, i 1, i 2, eq_ix3 i⟩
  refine (shapeCast_apply (flatWeight x c) h (ix3 t b s) (ix2 t (colOf b s)) (by
    rw [Shape.rowMajor_val_two, Shape.rowMajor_val_three]
    show t.val * 32768 + (b.val * 1024 + s.val) = (t.val * 32 + b.val) * 1024 + s.val
    omega)).trans ?_
  exact flatWeight_at x c _ b t s rfl rfl

end Cert.Attn

end
-- ==== Proof.KFinal.lean ====
/-
  The kernel's two result arrays after the run.

  At grid point `t` (query tile `t % 4` of batch entry `t / 4`) the body's values at (r, ·) are, by the
  payload lemmas and the block reads, the attention weights and the projected output of query row
  `256·(t % 4) + r` of batch entry `t / 4`; the output windows put that block at rows
  `256·(t % 4) …` and columns `1024·(t / 4) …` of the flattened arrays, which is where the flattened
  results hold those very values.  Every index of a flattened array lies in the block of the point
  `4·(column / 1024) + row / 256`, so the arrays end holding the flattened results, and the two reshapes
  after the region give the specification's layout.
-/
import proofs.«128563_j44358422233601_2_alg».proof.Proof.KBlocks
import proofs.«128563_j44358422233601_2_alg».proof.Proof.KPayload
import proofs.«128563_j44358422233601_2_alg».proof.Proof.Flat

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Attn

variable (m : (ℓ : Loc nD τ sig) → Buf (Elt Ideal) ℓ) (ρ : Dev nD → PrngReg)

/-- The three arguments as the specification reads them. -/
abbrev argX (c : Dev nD) : Arr3 := m ((c : Thread nD τ).loc main_arg0)
abbrev argC (c : Dev nD) : Arr3 := m ((c : Thread nD τ).loc main_arg1)
abbrev argW (c : Dev nD) : ArrW := m ((c : Thread nD τ).loc main_arg2)

/-- A query tile's entry is the query array's entry at the tile's row of the point's batch entry. -/
theorem x_at (c : Dev nD) (t : Fin cfg0.N) (r : Fin 256) (d : Fin 1024) :
    (iblk m c 0 t : Vec Ideal S1x256x1024 .f32) (ix3 (0 : Fin 1) r d) = argX m c (ix3 (bOf t) (rowOf t r) d) :=
  (iblk0_apply m c t r d).trans (congrFun (V_main_arg0 m c) _)

/-- The scratch's entry is the key array's entry of the point's batch entry. -/
theorem c_at (c : Dev nD) (t : Fin cfg0.N) (s d : Fin 1024) :
    k0_pay2 (F := Ideal) (iblk m c 1 t) (ix2 s d) = argC m c (ix3 (bOf t) s d) :=
  (pay2_apply (iblk m c 1 t) s d).trans ((iblk1_apply m c t s d).trans (congrFun (V_main_arg1 m c) _))

/-- The first projection window's entry is the projection matrix's entry in its first column half. -/
theorem wc_at (c : Dev nD) (t : Fin cfg0.N) (e d : Fin 1024) :
    (iblk m c 2 t : Vec Ideal S1024x1024 .bf16) (ix2 e d) = argW m c (ix2 e (lo d)) := by
  refine (iblk2_apply m c t e d).trans ?_
  rw [V_main_v1]
  refine (truncf_apply _ bitsLt_bf16_f32 (ix2 e d)).trans ?_
  exact extractStridedSlice_apply ![0, 0] (m ((c : Thread nD τ).loc main_arg2)) slices_S1024x2048_S1024x1024_0_0 (ix2 e d) (ix2 e (lo d))
    (fun a => match a with
      | ⟨0, _⟩ => by show e.val = 0 + e.val; omega
      | ⟨1, _⟩ => by show d.val = 0 + d.val; omega)

/-- The second projection window's entry is the projection matrix's entry in its second column half. -/
theorem wi_at (c : Dev nD) (t : Fin cfg0.N) (e d : Fin 1024) :
    (iblk m c 3 t : Vec Ideal S1024x1024 .bf16) (ix2 e d) = argW m c (ix2 e (hi d)) := by
  refine (iblk3_apply m c t e d).trans ?_
  rw [V_main_v3]
  refine (truncf_apply _ bitsLt_bf16_f32 (ix2 e d)).trans ?_
  exact extractStridedSlice_apply ![0, 1024] (m ((c : Thread nD τ).loc main_arg2)) slices_S1024x2048_S1024x1024_0_1024 (ix2 e d) (ix2 e (hi d))
    (fun a => match a with
      | ⟨0, _⟩ => by show e.val = 0 + e.val; omega
      | ⟨1, _⟩ => by show 1024 + d.val = 1024 + d.val; omega)

/-- The body's weights at a point are the specification's weights of the point's rows. -/
theorem weights_at (c : Dev nD) (t : Fin cfg0.N) (r : Fin 256) (s : Fin 1024) :
    k0_pay3 (F := Ideal) (iblk m c 0 t) (k0_pay2 (iblk m c 1 t)) (ix2 r s) = weight (argX m c) (argC m c) (bOf t) (rowOf t r) s := by
  refine (pay3_apply (iblk m c 0 t) (k0_pay2 (iblk m c 1 t)) r s).trans ?_
  unfold weight
  refine congrArg (fun a => softmax a s) (funext fun s' => ?_)
  exact Finset.sum_congr rfl fun d _ => congrArg₂ (· * ·) (x_at m c t r d) (c_at m c t s' d)

/-- The body's projected output at a point is the specification's of the point's rows. -/
theorem hidden_at (c : Dev nD) (t : Fin cfg0.N) (r : Fin 256) (e : Fin 1024) :
    k0_pay4 (F := Ideal) (iblk m c 0 t) (k0_pay2 (iblk m c 1 t)) (iblk m c 2 t) (iblk m c 3 t) (ix2 r e)
      = hidden (argX m c) (argC m c) (argW m c) (bOf t) (rowOf t r) e := by
  refine (pay4_apply (iblk m c 0 t) (k0_pay2 (iblk m c 1 t)) (iblk m c 2 t) (iblk m c 3 t) r e).trans ?_
  unfold Cert.Attn.hidden Cert.Attn.mixed
  refine congrArg Ideal.tanh (congrArg₂ (· + ·) ?_ ?_)
  · refine Finset.sum_congr rfl fun d _ => congrArg₂ (· * ·) ?_ (wc_at m c t e d)
    exact Finset.sum_congr rfl fun s _ => congrArg₂ (· * ·) (weights_at m c t r s) (c_at m c t s d)
  · exact Finset.sum_congr rfl fun d _ => congrArg₂ (· * ·) (x_at m c t r d) (wi_at m c t e d)

/-- WHAT POINT `t` WRITES BACK through the second output window is its block of the flattened weights. -/
theorem flushed5_eq (c : Dev nD) (t : Fin cfg0.N) :
    (dats m 0 c).flushed 5 t = ((cfg0.win 5).blk t).view.read (Elt Ideal) (flatWeight (argX m c) (argC m c)) := by
  obtain ⟨-, -, -, -, -, -, -, -, -, -, -, -, e0, e1⟩ := idx_facts t
  show (cfg0.win 5).cut (grid0.coords t) ((dats m 0 c).after 5 t) = _
  rw [after0_5, outsAt_eq]
  funext y
  obtain ⟨r, s, rfl⟩ : ∃ (r : Fin 256) (s : Fin 1024), y = ix2 r s := ⟨y 0, y 1, eq_ix2 y⟩
  rw [View.read_apply]
  show k0_pay3 (F := Ideal) (iblk m c 0 t) (k0_pay2 (iblk m c 1 t)) (ix2 r s) = _
  refine (weights_at m c t r s).trans (flatWeight_at (argX m c) (argC m c) _ (bOf t) (rowOf t r) s ?_ ?_).symm
  · show win0_5.index t (0 : Fin 2) * 256 + 1 * r.val = t.val % 4 * 256 + r.val; omega
  · show win0_5.index t (1 : Fin 2) * 1024 + 1 * s.val = t.val / 4 * 1024 + s.val; omega

/-- WHAT POINT `t` WRITES BACK through the first output window is its block of the flattened output. -/
theorem flushed4_eq (c : Dev nD) (t : Fin cfg0.N) :
    (dats m 0 c).flushed 4 t = ((cfg0.win 4).blk t).view.read (Elt Ideal) (flatHidden (argX m c) (argC m c) (argW m c)) := by
  obtain ⟨-, -, -, -, -, -, -, -, -, -, e0, e1, -⟩ := idx_facts t
  show (cfg0.win 4).cut (grid0.coords t) ((dats m 0 c).after 4 t) = _
  rw [after0_4, outsAt_eq]
  funext y
  obtain ⟨r, e, rfl⟩ : ∃ (r : Fin 256) (e : Fin 1024), y = ix2 r e := ⟨y 0, y 1, eq_ix2 y⟩
  rw [View.read_apply]
  show k0_pay4 (F := Ideal) (iblk m c 0 t) (k0_pay2 (iblk m c 1 t)) (iblk m c 2 t) (iblk m c 3 t) (ix2 r e) = _
  refine (hidden_at m c t r e).trans (flatHidden_at (argX m c) (argC m c) (argW m c) _ (bOf t) (rowOf t r) e ?_ ?_).symm
  · show win0_4.index t (0 : Fin 2) * 256 + 1 * r.val = t.val % 4 * 256 + r.val; omega
  · show win0_4.index t (1 : Fin 2) * 1024 + 1 * e.val = t.val / 4 * 1024 + e.val; omega

/-- The point whose blocks hold index `i` of a flattened array. -/
abbrev ptOf (i0 i1 : Nat) (h0 : i0 < 1024) (h1 : i1 < 32768) : Fin cfg0.N :=
  ⟨i1 / 1024 * 4 + i0 / 256, by rw [show cfg0.N = 128 from N_0]; omega⟩

/-- Every index of the first flattened array is in some point's block. -/
theorem cover4 (i : S1024x32768.Idx) :
    ∃ t : Fin cfg0.N, (cfg0.win 4).flush t = true ∧ i ∈ ((cfg0.win 4).blk t).view.set := by
  have h0 : (i 0).val < 1024 := (i 0).isLt
  have h1 : (i 1).val < 32768 := (i 1).isLt
  refine ⟨ptOf (i 0).val (i 1).val h0 h1, flush0_4 _, ?_⟩
  obtain ⟨-, -, -, -, -, -, -, -, -, -, e0, e1, -⟩ := idx_facts (ptOf (i 0).val (i 1).val h0 h1)
  show i ∈ ((View.whole main_v4_0).slice (win0_4.rect (ptOf (i 0).val (i 1).val h0 h1))).set
  rw [View.set_slice_whole, Rect.mem_set_unit]
  intro a
  match a with
  | ⟨0, _⟩ =>
    show win0_4.index (ptOf (i 0).val (i 1).val h0 h1) (0 : Fin 2) * 256 ≤ (i 0).val
      ∧ (i 0).val < win0_4.index (ptOf (i 0).val (i 1).val h0 h1) (0 : Fin 2) * 256 + 256
    rw [e0]; show ((i 1).val / 1024 * 4 + (i 0).val / 256) % 4 * 256 ≤ _ ∧ _ < ((i 1).val / 1024 * 4 + (i 0).val / 256) % 4 * 256 + 256
    omega
  | ⟨1, _⟩ =>
    show win0_4.index (ptOf (i 0).val (i 1).val h0 h1) (1 : Fin 2) * 1024 ≤ (i 1).val
      ∧ (i 1).val < win0_4.index (ptOf (i 0).val (i 1).val h0 h1) (1 : Fin 2) * 1024 + 1024
    rw [e1]; show ((i 1).val / 1024 * 4 + (i 0).val / 256) / 4 * 1024 ≤ _ ∧ _ < ((i 1).val / 1024 * 4 + (i 0).val / 256) / 4 * 1024 + 1024
    omega

/-- Every index of the second flattened array is in some point's block. -/
theorem cover5 (i : S1024x32768.Idx) :
    ∃ t : Fin cfg0.N, (cfg0.win 5).flush t = true ∧ i ∈ ((cfg0.win 5).blk t).view.set := by
  have h0 : (i 0).val < 1024 := (i 0).isLt
  have h1 : (i 1).val < 32768 := (i 1).isLt
  refine ⟨ptOf (i 0).val (i 1).val h0 h1, flush0_5 _, ?_⟩
  obtain ⟨-, -, -, -, -, -, -, -, -, -, -, -, e0, e1⟩ := idx_facts (ptOf (i 0).val (i 1).val h0 h1)
  show i ∈ ((View.whole main_v4_1).slice (win0_5.rect (ptOf (i 0).val (i 1).val h0 h1))).set
  rw [View.set_slice_whole, Rect.mem_set_unit]
  intro a
  match a with
  | ⟨0, _⟩ =>
    show win0_5.index (ptOf (i 0).val (i 1).val h0 h1) (0 : Fin 2) * 256 ≤ (i 0).val
      ∧ (i 0).val < win0_5.index (ptOf (i 0).val (i 1).val h0 h1) (0 : Fin 2) * 256 + 256
    rw [e0]; show ((i 1).val / 1024 * 4 + (i 0).val / 256) % 4 * 256 ≤ _ ∧ _ < ((i 1).val / 1024 * 4 + (i 0).val / 256) % 4 * 256 + 256
    omega
  | ⟨1, _⟩ =>
    show win0_5.index (ptOf (i 0).val (i 1).val h0 h1) (1 : Fin 2) * 1024 ≤ (i 1).val
      ∧ (i 1).val < win0_5.index (ptOf (i 0).val (i 1).val h0 h1) (1 : Fin 2) * 1024 + 1024
    rw [e1]; show ((i 1).val / 1024 * 4 + (i 0).val / 256) / 4 * 1024 ≤ _ ∧ _ < ((i 1).val / 1024 * 4 + (i 0).val / 256) / 4 * 1024 + 1024
    omega

/-- The first flattened array after the run. -/
theorem final4 (c : Dev nD) : (dats m 0 c).arrAt 4 cfg0.N = flatHidden (argX m c) (argC m c) (argW m c) :=
  (dats m 0 c).arrAt_eq_of_cover 4 (flatHidden (argX m c) (argC m c) (argW m c)) (fun t _ => flushed4_eq m c t) cover4

/-- The second flattened array after the run. -/
theorem final5 (c : Dev nD) : (dats m 0 c).arrAt 5 cfg0.N = flatWeight (argX m c) (argC m c) :=
  (dats m 0 c).arrAt_eq_of_cover 5 (flatWeight (argX m c) (argC m c)) (fun t _ => flushed5_eq m c t) cover5

end Cert.KernelIdeal.KValue

end
-- ==== Proof.KRun.lean ====
/-
  The idealized kernel's run, read: every weakly fair execution ends with the two results at the
  specification's values of the argument arrays, and the arguments unchanged.  The region leaves the two
  flattened arrays; the two host operations after it split the flattened axis of each.
-/
import proofs.«128563_j44358422233601_2_alg».proof.Proof.KFinal
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Attn

variable (m : (ℓ : Loc nD τ sig) → Buf (Elt Ideal) ℓ) (ρ : Dev nD → PrngReg)

/-- The first result: the first flattened array with its column axis split. -/
theorem tail5 (c : Dev nD) :
    Pipeline.afterTail₀ cfgs (dats m) 0 (V0 m) [hostOps1] c main_v5 = outHidden (argX m c) (argC m c) (argW m c) := by
  unfold Pipeline.afterTail₀
  show StableHlo.after hostOps1 _ (Proc.devRef .tc main_v5) = _
  after_results
  funext i
  show shapeCast S1024x32x1024 (Pipeline.withArrays (cfgs 0).spec c (V0 m c) (fun w => (dats m 0 c).arrAt w (cfgs 0).N)
    (Proc.tc.devRef main_v4_0)) shapeCasts_S1024x32768_S1024x32x1024 i = _
  refine Eq.trans (congrArg (fun z => shapeCast S1024x32x1024 z shapeCasts_S1024x32768_S1024x32x1024 i)
    ((Pipeline.withArrays_arr spec0 launch0.win.arr_inj c (V0 m c) (fun w => (dats m 0 c).arrAt w cfg0.N) 4).trans (final4 m c))) ?_
  exact congrFun (reshape_flatHidden (argX m c) (argC m c) (argW m c) shapeCasts_S1024x32768_S1024x32x1024) i

/-- The second result: the second flattened array with its column axis split. -/
theorem tail6 (c : Dev nD) :
    Pipeline.afterTail₀ cfgs (dats m) 0 (V0 m) [hostOps1] c main_v6 = outWeight (argX m c) (argC m c) := by
  unfold Pipeline.afterTail₀
  show StableHlo.after hostOps1 _ (Proc.devRef .tc main_v6) = _
  after_results
  funext i
  show shapeCast S1024x32x1024 (Pipeline.withArrays (cfgs 0).spec c (V0 m c) (fun w => (dats m 0 c).arrAt w (cfgs 0).N)
    (Proc.tc.devRef main_v4_1)) shapeCasts_S1024x32768_S1024x32x1024 i = _
  refine Eq.trans (congrArg (fun z => shapeCast S1024x32x1024 z shapeCasts_S1024x32768_S1024x32x1024 i)
    ((Pipeline.withArrays_arr spec0 launch0.win.arr_inj c (V0 m c) (fun w => (dats m 0 c).arrAt w cfg0.N) 5).trans (final5 m c))) ?_
  exact congrFun (reshape_flatWeight (argX m c) (argC m c) shapeCasts_S1024x32768_S1024x32x1024) i

/-- THE RUN: both results at the specification's values of the arguments, the arguments unchanged. -/
theorem run : θ_run defs (onTc (τ := τ) (main (F := Ideal))) ⟨m, fun _ => 0, ρ⟩ fun r => ∀ c : Dev nD,
      r.2.mem ((c.tc : Thread nD τ).loc main_v5) = outHidden (argX m c) (argC m c) (argW m c)
      ∧ r.2.mem ((c.tc : Thread nD τ).loc main_v6) = outWeight (argX m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      ((h c).2 main_v5 (Pipeline.mem_restRefs_of main_v5 (by decide) (by decide))).trans (tail5 m c),
      ((h c).2 main_v6 (Pipeline.mem_restRefs_of main_v6 (by decide) (by decide))).trans (tail6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.lean ====
/-
  Dot-product attention with an output projection: a kernel that walks 32 batch entries in 4 query
  tiles each, keeping a copy of the batch entry's keys in a scratch buffer from the first tile on,
  against the plain formulation.  Over the extended reals both compute, for every batch entry `b`, query
  position `t` and feature, the softmax over the keys of the scores `∑ d, x[b,t,d]·c[b,s,d]` (taken the
  stable way: minus the row maximum, started from −∞) and the hyperbolic tangent of the context vector and
  the query through the two column halves of the projection matrix; both lay the results out query
  position first.  The kernel's tiling, its re-cast copies (a change of float format is the identity here)
  and its flattened output layout change nothing; the plain formulation's second maximum with −∞ changes
  nothing either.  No law used needs the inputs to be finite, so the precondition is never opened.

  The frames of the two kernel programs are the generated ones; the plain formulation's frame is its
  generated run with the results dropped; the idealization rewrote nothing.
-/
import proofs.«128563_j44358422233601_2_alg».proof.Defs
import proofs.«128563_j44358422233601_2_alg».proof.Proof.Gen.Kernel
import proofs.«128563_j44358422233601_2_alg».proof.Proof.Gen.Kernel.Skeleton
import proofs.«128563_j44358422233601_2_alg».proof.Proof.Gen.Kernel.Launch
import proofs.«128563_j44358422233601_2_alg».proof.Proof.Gen.Kernel.Points
import proofs.«128563_j44358422233601_2_alg».proof.Proof.Gen.Kernel.Frame
import proofs.«128563_j44358422233601_2_alg».proof.Proof.Gen.KernelIdeal
import proofs.«128563_j44358422233601_2_alg».proof.Proof.Gen.KernelIdeal.Skeleton
import proofs.«128563_j44358422233601_2_alg».proof.Proof.Gen.KernelIdeal.Launch
import proofs.«128563_j44358422233601_2_alg».proof.Proof.Gen.KernelIdeal.Points
import proofs.«128563_j44358422233601_2_alg».proof.Proof.Gen.KernelIdeal.Frame
import proofs.«128563_j44358422233601_2_alg».proof.Proof.Gen.ReferenceIdeal
import proofs.«128563_j44358422233601_2_alg».proof.Proof.Gen.ReferenceIdeal.Run
import proofs.«128563_j44358422233601_2_alg».proof.Proof.Gen.ReferenceIdeal.Read
import proofs.«128563_j44358422233601_2_alg».proof.Proof.RefValue
import proofs.«128563_j44358422233601_2_alg».proof.Proof.KRun
import proofs.«128563_j44358422233601_2_alg».proof.Proof.Gen.Pre_finite_inputs
import Idealize.ShloMosaic.Adequacy
import Idealize.ShloMosaic.Init

noncomputable section

namespace Cert.Proof

open Idealize.ShloMosaic Idealize.SL.Sem Cert.Kernel

/-- The plain formulation runs and keeps its arguments: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs, run from memories that agree on the arguments, end with the specification's two results
    of those arguments. -/
theorem algebraic : Cert.algebraic_KernelIdeal_ReferenceIdeal := by
  intro m ρ m' ρ' _ hagree
  refine ⟨fun c => Cert.Attn.outHidden (Cert.KernelIdeal.KValue.argX m c) (Cert.KernelIdeal.KValue.argC m c) (Cert.KernelIdeal.KValue.argW m c),
    fun c => Cert.Attn.outWeight (Cert.KernelIdeal.KValue.argX m c) (Cert.KernelIdeal.KValue.argC m c),
    Cert.KernelIdeal.KValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v19_eq, Cert.ReferenceIdeal.RefValue.out0_eq,
      (hagree c).1, (hagree c).2.1, (hagree c).2.2]
  · rw [(h c).2.1, Cert.ReferenceIdeal.Read.val_main_v20_eq, Cert.ReferenceIdeal.RefValue.out1_eq,
      (hagree c).1, (hagree c).2.1]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
